-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S4x64x128 : Shape := ⟨3, ![4, 64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S4x64x128 : S_.BroadcastsInDim S4x64x128 (![] : Fin 0 → Fin S4x64x128.rank)
  reducesTo_S4x64x128_S_d0_1_2 : S4x64x128.ReducesTo [0, 1, 2] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S4x64x128 .f32) (main_arg3 : FVec F S128 .f32) (main_arg4 : FVec F S128x1 .f32) (main_arg5 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S4x64x128 .f32 := Host.absf main_arg2
  let main_cst_0 : FVec F S_ .f32 := constant S_ .f32 0x7F800000#32
  let main_v5 : FVec F S4x64x128 .f32 := broadcastInDim S4x64x128 ![] bcast_S_S4x64x128 main_cst_0
  let main_v6 : IVec S4x64x128 1 := cmpf .olt main_v4 main_v5
  let main_c_1 : IVec S_ 1 := constantI S_ 1 1#1
  let main_v7 : IVec S_ 1 := (fun x v => Host.reduce IntOp.andi x v reducesTo_S4x64x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S4x64x128 : Shape := ⟨3, ![4, 64, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x50000x64 : Shape := ⟨3, ![1, 50000, 64]⟩
abbrev S4x50000x64 : Shape := ⟨3, ![4, 50000, 64]⟩
abbrev S1x128 : Shape := ⟨2, ![1, 128]⟩
abbrev S1x1 : Shape := ⟨2, ![1, 1]⟩
abbrev S50000x1 : Shape := ⟨2, ![50000, 1]⟩
abbrev S4x2000x64 : Shape := ⟨3, ![4, 2000, 64]⟩
abbrev S2000x1 : Shape := ⟨2, ![2000, 1]⟩
abbrev S2000x128 : Shape := ⟨2, ![2000, 128]⟩
abbrev S1x2000x64 : Shape := ⟨3, ![1, 2000, 64]⟩
abbrev S2000x64 : Shape := ⟨2, ![2000, 64]⟩
abbrev S1x64x128 : Shape := ⟨3, ![1, 64, 128]⟩
abbrev S64x128 : Shape := ⟨2, ![64, 128]⟩

abbrev nBuf : Space → Nat
  | .hbm => 112
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S4x64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S800000x1, .f32⟩
  | .hbm, ⟨57, _⟩ => ⟨S800000x64, .f32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x1, .f32⟩
  | .hbm, ⟨73, _⟩ => ⟨S800000x64, .f32⟩
  | .hbm, ⟨74, _⟩ => ⟨S800000x64, .f32⟩
  | .hbm, ⟨75, _⟩ => ⟨S_, .f32⟩
  | .hbm, ⟨76, _⟩ => ⟨S50000x64, .f32⟩
  | .hbm, ⟨77, _⟩ => ⟨S800000x1, .i32⟩
  | .hbm, ⟨78, _⟩ => ⟨S50000x64, .f32⟩
  | .hbm, ⟨79, _⟩ => ⟨S_, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x64, .f32⟩
  | .hbm, ⟨92, _⟩ => ⟨S800000x1, .f32⟩
  | .hbm, ⟨93, _⟩ => ⟨S800000x64, .f32⟩
  | .hbm, ⟨94, _⟩ => ⟨S800000x64, .f32⟩
  | .hbm, ⟨95, _⟩ => ⟨S_, .f32⟩
  | .hbm, ⟨96, _⟩ => ⟨S50000x64, .f32⟩
  | .hbm, ⟨97, _⟩ => ⟨S800000x1, .i32⟩
  | .hbm, ⟨98, _⟩ => ⟨S50000x64, .f32⟩
  | .hbm, ⟨99, _⟩ => ⟨S_, .f32⟩
  | .hbm, ⟨100, _⟩ => ⟨S50000x64, .f32⟩
  | .hbm, ⟨101, _⟩ => ⟨S50000x64, .f32⟩
  | .hbm, ⟨102, _⟩ => ⟨S50000x64, .f32⟩
  | .hbm, ⟨103, _⟩ => ⟨S1x50000x64, .f32⟩
  | .hbm, ⟨104, _⟩ => ⟨S1x50000x64, .f32⟩
  | .hbm, ⟨105, _⟩ => ⟨S1x50000x64, .f32⟩
  | .hbm, ⟨106, _⟩ => ⟨S1x50000x64, .f32⟩
  | .hbm, ⟨107, _⟩ => ⟨S4x50000x64, .f32⟩
  | .hbm, ⟨108, _⟩ => ⟨S1x128, .f32⟩
  | .hbm, ⟨109, _⟩ => ⟨S1x1, .f32⟩
  | .hbm, ⟨110, _⟩ => ⟨S50000x1, .f32⟩
  | .hbm, ⟨111, _⟩ => ⟨S50000, .f32⟩
  | .local _ .vmem, ⟨0, _⟩ => ⟨S4x2000x64, .f32⟩
  | .local _ .vmem, ⟨1, _⟩ => ⟨S4x2000x64, .f32⟩
  | .local _ .vmem, ⟨2, _⟩ => ⟨S4x64x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S2000x1, .f32⟩
  | .local _ .vmem, ⟨7, _⟩ => ⟨S2000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_c_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  concatenates_S1x50000x64_S1x50000x64_S1x50000x64_S1x50000x64_S4x50000x64_d0 : Shape.Concatenates [S1x50000x64, S1x50000x64, S1x50000x64, S1x50000x64] S4x50000x64 0
  shapeCasts_S128_S1x128 : S128.ShapeCasts S1x128
  shapeCasts_S1_S1x1 : S1.ShapeCasts S1x1
  inb_S4x2000x64_S1x2000x64_0_0_0 : ∀ a, (![0, 0, 0] : Fin 3 → Nat) a + S1x2000x64.size a ≤ S4x2000x64.size a
  h_S1x2000x64 : 0 < S1x2000x64.numel
  shapeCasts_S1x2000x64_S2000x64 : S1x2000x64.ShapeCasts S2000x64
  bitsLt_bf16_f32 : FTy.bits .bf16 < FTy.bits .f32
  inb_S4x64x128_S1x64x128_0_0_0 : ∀ a, (![0, 0, 0] : Fin 3 → Nat) a + S1x64x128.size a ≤ S4x64x128.size a
  h_S1x64x128 : 0 < S1x64x128.numel
  shapeCasts_S1x64x128_S64x128 : S1x64x128.ShapeCasts S64x128
  inb_S4x2000x64_S1x2000x64_1_0_0 : ∀ a, (![1, 0, 0] : Fin 3 → Nat) a + S1x2000x64.size a ≤ S4x2000x64.size a
  inb_S4x64x128_S1x64x128_1_0_0 : ∀ a, (![1, 0, 0] : Fin 3 → Nat) a + S1x64x128.size a ≤ S4x64x128.size a
  inb_S4x2000x64_S1x2000x64_2_0_0 : ∀ a, (![2, 0, 0] : Fin 3 → Nat) a + S1x2000x64.size a ≤ S4x2000x64.size a
  inb_S4x64x128_S1x64x128_2_0_0 : ∀ a, (![2, 0, 0] : Fin 3 → Nat) a + S1x64x128.size a ≤ S4x64x128.size a
  inb_S4x2000x64_S1x2000x64_3_0_0 : ∀ a, (![3, 0, 0] : Fin 3 → Nat) a + S1x2000x64.size a ≤ S4x2000x64.size a
  inb_S4x64x128_S1x64x128_3_0_0 : ∀ a, (![3, 0, 0] : Fin 3 → Nat) a + S1x64x128.size a ≤ S4x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x64.size a ≤ S4x50000x64.size a
  hwx0_0 : ∀ i : grid0.Coords, EltTy.bits .f32 = 32 ∨ (Rect.block (s := S4x50000x64) S4x2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x128.size a ≤ S4x64x128.size a
  hwx0_1 : ∀ i : grid0.Coords, EltTy.bits .f32 = 32 ∨ (Rect.block (s := S4x64x128) S4x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .f32 = 32 ∨ (Rect.block (s := S50000x1) S2000x1.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v79) S4x2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v80) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v81) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v82) S2000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S4x64x128 : Shape := ⟨3, ![4, 64, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x64x128 : Shape := ⟨3, ![1, 64, 128]⟩
abbrev S64x128 : Shape := ⟨2, ![64, 128]⟩
abbrev S50000x128 : Shape := ⟨2, ![50000, 128]⟩
abbrev S800000x64 : Shape := ⟨2, ![800000, 64]⟩
abbrev S1x128 : Shape := ⟨2, ![1, 128]⟩
abbrev S50000x1 : Shape := ⟨2, ![50000, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S4x64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S1x64x128, .f32⟩
  | .hbm, ⟨48, _⟩ => ⟨S64x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S800000x1, .f32⟩
  | .hbm, ⟨60, _⟩ => ⟨S800000x64, .f32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S1x64x128, .f32⟩
  | .hbm, ⟨67, _⟩ => ⟨S64x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x64, .f32⟩
  | .hbm, ⟨79, _⟩ => ⟨S800000x1, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S_, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S1x64x128, .f32⟩
  | .hbm, ⟨91, _⟩ => ⟨S64x128, .f32⟩
  | .hbm, ⟨92, _⟩ => ⟨S50000x128, .f32⟩
  | .hbm, ⟨93, _⟩ => ⟨S50000x128, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x64, .f32⟩
  | .hbm, ⟨103, _⟩ => ⟨S800000x1, .f32⟩
  | .hbm, ⟨104, _⟩ => ⟨S800000x64, .f32⟩
  | .hbm, ⟨105, _⟩ => ⟨S800000x64, .f32⟩
  | .hbm, ⟨106, _⟩ => ⟨S_, .f32⟩
  | .hbm, ⟨107, _⟩ => ⟨S50000x64, .f32⟩
  | .hbm, ⟨108, _⟩ => ⟨S800000x1, .i32⟩
  | .hbm, ⟨109, _⟩ => ⟨S50000x64, .f32⟩
  | .hbm, ⟨110, _⟩ => ⟨S_, .f32⟩
  | .hbm, ⟨111, _⟩ => ⟨S50000x64, .f32⟩
  | .hbm, ⟨112, _⟩ => ⟨S50000x64, .f32⟩
  | .hbm, ⟨113, _⟩ => ⟨S50000x64, .f32⟩
  | .hbm, ⟨114, _⟩ => ⟨S1x64x128, .f32⟩
  | .hbm, ⟨115, _⟩ => ⟨S64x128, .f32⟩
  | .hbm, ⟨116, _⟩ => ⟨S50000x128, .f32⟩
  | .hbm, ⟨117, _⟩ => ⟨S50000x128, .f32⟩
  | .hbm, ⟨118, _⟩ => ⟨S1x128, .f32⟩
  | .hbm, ⟨119, _⟩ => ⟨S50000x128, .f32⟩
  | .hbm, ⟨120, _⟩ => ⟨S50000x128, .f32⟩
  | .hbm, ⟨121, _⟩ => ⟨S50000x128, .f32⟩
  | .hbm, ⟨122, _⟩ => ⟨S50000x1, .f32⟩
  | .hbm, ⟨123, _⟩ => ⟨S1x1, .f32⟩
  | .hbm, ⟨124, _⟩ => ⟨S50000x1, .f32⟩
  | .hbm, ⟨125, _⟩ => ⟨S50000x1, .f32⟩
  | .hbm, ⟨126, _⟩ => ⟨S50000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x64x128_S1x64x128_0_0_0 : S4x64x128.Slices ![0, 0, 0] S1x64x128
  shapeCasts_S1x64x128_S64x128 : S1x64x128.ShapeCasts S64x128
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S4x64x128_S1x64x128_1_0_0 : S4x64x128.Slices ![1, 0, 0] S1x64x128
  slices_S4x64x128_S1x64x128_2_0_0 : S4x64x128.Slices ![2, 0, 0] S1x64x128
  slices_S4x64x128_S1x64x128_3_0_0 : S4x64x128.Slices ![3, 0, 0] S1x64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x128_S50000x128_1_0_0_1_n_n_wf : DotDims.WF S50000x64 S64x128 S50000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x128_S128x1_S50000x1_1_0_0_1_n_n_wf : DotDims.WF S50000x128 S128x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelFrame.lean ====
/-
  The run of the program around its one kernel region, at any float instance.

  The program is a prefix of host operations (the degree normalisation and the three sparse products of the
  Chebyshev recurrence, then the four arrays T_0 .. T_3 laid side by side along a new leading axis), one kernel
  region over 25 consecutive row tiles of 2000 rows, and one final re-layout of the [50000,1] result as [50000].

  At a grid point t the kernel body reads the tile's rows of the four stacked arrays (one slab per order), the four
  weight matrices, the bias row, the head's column and its offset, and overwrites the whole [2000,1] output block;
  it keeps nothing between points.  So what the output block holds after the body is one store's value over the
  blocks read, every input block is left as found, and the region's invariant is the untouched rest.

  From this the run follows: every execution terminates without a fault, the output array ends as the blocks
  written back, every other array ends as the region found it, and the final re-layout reads the output array.
  The six argument arrays are written by no host operation, before or after the region, so they end unchanged.
-/
import proofs.«153301_j68375879352861_1_alg».proof.Proof.Gen.Kernel.Launch
import proofs.«153301_j68375879352861_1_alg».proof.Proof.Gen.Kernel.Skeleton
import proofs.«153301_j68375879352861_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What each buffer of core `c` holds when the region is entered: the launch contents after the host prefix. -/
abbrev V0 (c : Dev nD) : Valuation τ sig (Elt F) :=
  StableHlo.after (List.flatten [hostOps0, hostOps0_1, hostOps0_2]) (fun b => m (c, b))
/-- The same, read at a buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host prefix, the region, and the final re-layout: it reduces to the region continued by
    the re-layout. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The re-layout after the region touches only the region's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's arrays (it writes its own result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the re-layout after it: argument 0, which no window stages, ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the re-layout after it: argument 1, which no window stages, ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the re-layout after it: argument 3, which no window stages, ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the re-layout after it: argument 5, which no window stages, ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state that has the region's arrays as the proof data computes them and every other buffer as the
    final re-layout leaves it, the six argument arrays are as launched (a staged one is an input array, which the
    region leaves as found; the others bypass the region). -/
theorem post_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).2 main_arg3 (Pipeline.mem_restRefs_of main_arg3 (by decide) (by decide))).trans (W_main_arg3 m dats c),
    ((h c).1 3).trans (((dats 0 c).arrAt_in 3 rfl _).trans ((hA c 3).trans (V_main_arg4 m c))),
    ((h c).2 main_arg5 (Pipeline.mem_restRefs_of main_arg5 (by decide) (by decide))).trans (W_main_arg5 m dats c)⟩

/-- So a run to such final states leaves the six argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => post_args m dats hA r h c) h

/-! ## The body's accesses -/

/-- The slab of order k in the stacked tile, -/
abbrev rT0 : Rect S4x2000x64 := Rect.unit (s := S4x2000x64) ![0, 0, 0] S1x2000x64.size inb_S4x2000x64_S1x2000x64_0_0_0
abbrev rT1 : Rect S4x2000x64 := Rect.unit (s := S4x2000x64) ![1, 0, 0] S1x2000x64.size inb_S4x2000x64_S1x2000x64_1_0_0
abbrev rT2 : Rect S4x2000x64 := Rect.unit (s := S4x2000x64) ![2, 0, 0] S1x2000x64.size inb_S4x2000x64_S1x2000x64_2_0_0
abbrev rT3 : Rect S4x2000x64 := Rect.unit (s := S4x2000x64) ![3, 0, 0] S1x2000x64.size inb_S4x2000x64_S1x2000x64_3_0_0
/-- the weight matrix of order k, -/
abbrev rW0 : Rect S4x64x128 := Rect.unit (s := S4x64x128) ![0, 0, 0] S1x64x128.size inb_S4x64x128_S1x64x128_0_0_0
abbrev rW1 : Rect S4x64x128 := Rect.unit (s := S4x64x128) ![1, 0, 0] S1x64x128.size inb_S4x64x128_S1x64x128_1_0_0
abbrev rW2 : Rect S4x64x128 := Rect.unit (s := S4x64x128) ![2, 0, 0] S1x64x128.size inb_S4x64x128_S1x64x128_2_0_0
abbrev rW3 : Rect S4x64x128 := Rect.unit (s := S4x64x128) ![3, 0, 0] S1x64x128.size inb_S4x64x128_S1x64x128_3_0_0
/-- and the whole bias row, head column, head offset and output block. -/
abbrev rB : Rect S1x128 := Rect.unit (s := S1x128) ![0, 0] S1x128.size inb_S1x128_S1x128_0_0
abbrev rH : Rect S128x1 := Rect.unit (s := S128x1) ![0, 0] S128x1.size inb_S128x1_S128x1_0_0
abbrev rC : Rect S1x1 := Rect.unit (s := S1x1) ![0, 0] S1x1.size inb_S1x1_S1x1_0_0
abbrev rO : Rect S2000x1 := Rect.unit (s := S2000x1) ![0, 0] S2000x1.size inb_S2000x1_S2000x1_0_0

/-! ## What the body leaves in the output block -/

/-- The output block after the body, from the input blocks: its one store, of the head applied to the tanh of the
    four accumulated products plus the bias. -/
def out0_5 (x0 : Vec F S4x2000x64 .f32) (x1 : Vec F S4x64x128 .f32) (x2 : Vec F S1x128 .f32) (x3 : Vec F S128x1 .f32) (x4 : Vec F S1x1 .f32) : Vec F S2000x1 .f32 :=
  View.canon [⟨rO, k0_pay1 (k0_pay2 (View.ld x0 rT0) (View.ld x1 rW0) (View.ld x0 rT1) (View.ld x1 rW1) (View.ld x0 rT2) (View.ld x1 rW2))
    (k0_pay3 (View.ld x0 rT3)) (k0_pay4 (View.ld x1 rW3)) (View.ld x2 rB) (View.ld x3 rH) (View.ld x4 rC)⟩]

/-- The one store covers the block. -/
theorem cover0_5 (p0 : Vec F S2000x1 .f32) (y : S2000x1.Idx) :
    ∃ pc ∈ ([⟨rO, p0⟩] : List (View.Piece (Elt F) S2000x1 .f32)), y ∈ pc.1.set :=
  View.cover_of_tiled [⟨rO, p0⟩] S2000x1.size (by rfl) y

/-! ## The body's triple -/

set_option maxHeartbeats 4000000 in
/-- The kernel body on whole staging buffers, the inputs' at contents `xW` and the output's at anything, runs to the
    continuation holding the inputs' as they were and the output's at `out0_5` of the inputs'. -/
theorem sound_kernel (c : Dev nD) (E : Set ℕ) (i : grid0.Coords)
    (arg1 : Memref sig .tc .vmem S4x2000x64 .f32) (harg1 : arg1.IsWhole) (arg2 : Memref sig .tc .vmem S4x64x128 .f32) (harg2 : arg2.IsWhole)
    (arg3 : Memref sig .tc .vmem S1x128 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S2000x1 .f32) (harg6 : arg6.IsWhole)
    (x0 : Vec F S4x2000x64 .f32) (x1 : Vec F S4x64x128 .f32) (x2 : Vec F S1x128 .f32) (x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__head_kernel i arg1 harg1 arg2 harg2 arg3 harg3 arg4 harg4 arg5 harg5 arg6 harg6) K := by
  simp only [cc0__head_kernel_eq_skeleton]; unfold cc0__head_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The region's proof data -/

/-- On core `c`: the arrays as the region finds them; after the body at point `t` each input's buffer at its block
    and the output's at `out0_5` of the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and every final
    state has each array of the region at what the proof data computes and every other unscoped buffer as the final
    re-layout leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frm

end
-- ==== Proof.KernelIdealFrame.lean ====
/-
  The run of the program around its one kernel region, at any float instance.

  The program is a prefix of host operations (the degree normalisation and the three sparse products of the
  Chebyshev recurrence, then the four arrays T_0 .. T_3 laid side by side along a new leading axis), one kernel
  region over 25 consecutive row tiles of 2000 rows, and one final re-layout of the [50000,1] result as [50000].

  At a grid point t the kernel body reads the tile's rows of the four stacked arrays (one slab per order), the four
  weight matrices, the bias row, the head's column and its offset, and overwrites the whole [2000,1] output block;
  it keeps nothing between points.  So what the output block holds after the body is one store's value over the
  blocks read, every input block is left as found, and the region's invariant is the untouched rest.

  From this the run follows: every execution terminates without a fault, the output array ends as the blocks
  written back, every other array ends as the region found it, and the final re-layout reads the output array.
  The six argument arrays are written by no host operation, before or after the region, so they end unchanged.
-/
import proofs.«153301_j68375879352861_1_alg».proof.Proof.Gen.KernelIdeal.Launch
import proofs.«153301_j68375879352861_1_alg».proof.Proof.Gen.KernelIdeal.Skeleton
import proofs.«153301_j68375879352861_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What each buffer of core `c` holds when the region is entered: the launch contents after the host prefix. -/
abbrev V0 (c : Dev nD) : Valuation τ sig (Elt F) :=
  StableHlo.after (List.flatten [hostOps0, hostOps0_1, hostOps0_2]) (fun b => m (c, b))
/-- The same, read at a buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host prefix, the region, and the final re-layout: it reduces to the region continued by
    the re-layout. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The re-layout after the region touches only the region's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's arrays (it writes its own result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the re-layout after it: argument 0, which no window stages, ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the re-layout after it: argument 1, which no window stages, ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the re-layout after it: argument 3, which no window stages, ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the re-layout after it: argument 5, which no window stages, ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state that has the region's arrays as the proof data computes them and every other buffer as the
    final re-layout leaves it, the six argument arrays are as launched (a staged one is an input array, which the
    region leaves as found; the others bypass the region). -/
theorem post_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).2 main_arg3 (Pipeline.mem_restRefs_of main_arg3 (by decide) (by decide))).trans (W_main_arg3 m dats c),
    ((h c).1 3).trans (((dats 0 c).arrAt_in 3 rfl _).trans ((hA c 3).trans (V_main_arg4 m c))),
    ((h c).2 main_arg5 (Pipeline.mem_restRefs_of main_arg5 (by decide) (by decide))).trans (W_main_arg5 m dats c)⟩

/-- So a run to such final states leaves the six argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => post_args m dats hA r h c) h

/-! ## The body's accesses -/

/-- The slab of order k in the stacked tile, -/
abbrev rT0 : Rect S4x2000x64 := Rect.unit (s := S4x2000x64) ![0, 0, 0] S1x2000x64.size inb_S4x2000x64_S1x2000x64_0_0_0
abbrev rT1 : Rect S4x2000x64 := Rect.unit (s := S4x2000x64) ![1, 0, 0] S1x2000x64.size inb_S4x2000x64_S1x2000x64_1_0_0
abbrev rT2 : Rect S4x2000x64 := Rect.unit (s := S4x2000x64) ![2, 0, 0] S1x2000x64.size inb_S4x2000x64_S1x2000x64_2_0_0
abbrev rT3 : Rect S4x2000x64 := Rect.unit (s := S4x2000x64) ![3, 0, 0] S1x2000x64.size inb_S4x2000x64_S1x2000x64_3_0_0
/-- the weight matrix of order k, -/
abbrev rW0 : Rect S4x64x128 := Rect.unit (s := S4x64x128) ![0, 0, 0] S1x64x128.size inb_S4x64x128_S1x64x128_0_0_0
abbrev rW1 : Rect S4x64x128 := Rect.unit (s := S4x64x128) ![1, 0, 0] S1x64x128.size inb_S4x64x128_S1x64x128_1_0_0
abbrev rW2 : Rect S4x64x128 := Rect.unit (s := S4x64x128) ![2, 0, 0] S1x64x128.size inb_S4x64x128_S1x64x128_2_0_0
abbrev rW3 : Rect S4x64x128 := Rect.unit (s := S4x64x128) ![3, 0, 0] S1x64x128.size inb_S4x64x128_S1x64x128_3_0_0
/-- and the whole bias row, head column, head offset and output block. -/
abbrev rB : Rect S1x128 := Rect.unit (s := S1x128) ![0, 0] S1x128.size inb_S1x128_S1x128_0_0
abbrev rH : Rect S128x1 := Rect.unit (s := S128x1) ![0, 0] S128x1.size inb_S128x1_S128x1_0_0
abbrev rC : Rect S1x1 := Rect.unit (s := S1x1) ![0, 0] S1x1.size inb_S1x1_S1x1_0_0
abbrev rO : Rect S2000x1 := Rect.unit (s := S2000x1) ![0, 0] S2000x1.size inb_S2000x1_S2000x1_0_0

/-! ## What the body leaves in the output block -/

/-- The output block after the body, from the input blocks: its one store, of the head applied to the tanh of the
    four accumulated products plus the bias. -/
def out0_5 (x0 : Vec F S4x2000x64 .f32) (x1 : Vec F S4x64x128 .f32) (x2 : Vec F S1x128 .f32) (x3 : Vec F S128x1 .f32) (x4 : Vec F S1x1 .f32) : Vec F S2000x1 .f32 :=
  View.canon [⟨rO, k0_pay1 (k0_pay2 (View.ld x0 rT0) (View.ld x1 rW0) (View.ld x0 rT1) (View.ld x1 rW1) (View.ld x0 rT2) (View.ld x1 rW2))
    (k0_pay3 (View.ld x0 rT3)) (k0_pay4 (View.ld x1 rW3)) (View.ld x2 rB) (View.ld x3 rH) (View.ld x4 rC)⟩]

/-- The one store covers the block. -/
theorem cover0_5 (p0 : Vec F S2000x1 .f32) (y : S2000x1.Idx) :
    ∃ pc ∈ ([⟨rO, p0⟩] : List (View.Piece (Elt F) S2000x1 .f32)), y ∈ pc.1.set :=
  View.cover_of_tiled [⟨rO, p0⟩] S2000x1.size (by rfl) y

/-! ## The body's triple -/

set_option maxHeartbeats 4000000 in
/-- The kernel body on whole staging buffers, the inputs' at contents `xW` and the output's at anything, runs to the
    continuation holding the inputs' as they were and the output's at `out0_5` of the inputs'. -/
theorem sound_kernel (c : Dev nD) (E : Set ℕ) (i : grid0.Coords)
    (arg1 : Memref sig .tc .vmem S4x2000x64 .f32) (harg1 : arg1.IsWhole) (arg2 : Memref sig .tc .vmem S4x64x128 .f32) (harg2 : arg2.IsWhole)
    (arg3 : Memref sig .tc .vmem S1x128 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S2000x1 .f32) (harg6 : arg6.IsWhole)
    (x0 : Vec F S4x2000x64 .f32) (x1 : Vec F S4x64x128 .f32) (x2 : Vec F S1x128 .f32) (x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__head_kernel i arg1 harg1 arg2 harg2 arg3 harg3 arg4 harg4 arg5 harg5 arg6 harg6) K := by
  simp only [cc0__head_kernel_eq_skeleton]; unfold cc0__head_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The region's proof data -/

/-- On core `c`: the arrays as the region finds them; after the body at point `t` each input's buffer at its block
    and the output's at `out0_5` of the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and every final
    state has each array of the region at what the proof data computes and every other unscoped buffer as the final
    re-layout leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frm

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.HeadSpec.lean ====
/-
  The value both programs compute for one node (one row of the stacked Chebyshev arrays), on the extended reals.

  With T_0 .. T_3 the row's 64 entries in the four arrays of the recurrence, W_0 .. W_3 the [64,128] weight matrices,
  b the bias, h the head's [128] column and o its offset:

      hidden j = tanh ( (((T_0 . W_0 + T_1 . W_1) + T_2 . W_2) + T_3 . W_3) (j) + b j )        (j < 128)
      out      = (sum over j of hidden j * h j) + o

  The sums are finite sums of products of extended reals; nothing here needs the entries to be finite.
-/
import Idealize.ShloMosaic.PureOps.Ideal

noncomputable section

open scoped BigOperators

namespace Cert.HeadSpec

open Idealize.ShloMosaic

/-- One hidden unit of one row: tanh of the four accumulated products plus the bias. -/
def hidden (T0 T1 T2 T3 : Fin 64 → EReal) (W0 W1 W2 W3 : Fin 64 → Fin 128 → EReal) (b : Fin 128 → EReal) (j : Fin 128) : EReal :=
  Ideal.tanh (((((∑ k : Fin 64, T0 k * W0 k j) + ∑ k : Fin 64, T1 k * W1 k j) + ∑ k : Fin 64, T2 k * W2 k j)
    + ∑ k : Fin 64, T3 k * W3 k j) + b j)

/-- The row's output: the hidden units against the head's column, plus the head's offset. -/
def headRow (T0 T1 T2 T3 : Fin 64 → EReal) (W0 W1 W2 W3 : Fin 64 → Fin 128 → EReal) (b : Fin 128 → EReal)
    (h : Fin 128 → EReal) (o : EReal) : EReal :=
  (∑ j : Fin 128, hidden T0 T1 T2 T3 W0 W1 W2 W3 b j * h j) + o

end Cert.HeadSpec

end
-- ==== Proof.KernelPayload.lean ====
/-
  What the kernel body stores at one row of its output block, as a function of the blocks it reads, on the extended
  reals.

  The body reads slab n (n = 0..3) of the stacked tile [4,2000,64] and weight matrix n of [4,64,128], views each as a
  matrix, and accumulates the four products from a zero array; it adds the bias row repeated down the 2000 rows,
  applies tanh, multiplies by the head's [128,1] column and adds the head's [1,1] offset repeated down the rows.
  A change of float format is the identity, a product into a zero accumulator is the plain sum of products, and
  0 + x = x; so row p of the stored block is the row formula of `HeadSpec` at the row-p entries of the four slabs.
-/
import proofs.«153301_j68375879352861_1_alg».proof.Proof.KernelIdealFrame
import proofs.«153301_j68375879352861_1_alg».proof.Proof.LibDot
import proofs.«153301_j68375879352861_1_alg».proof.Proof.HeadSpec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Frm Cert.HeadSpec
open Idealize.ShloMosaic Idealize.ShloMosaic.ValueIdx

/-- Both products of the body are plain rows-by-columns products. -/
theorem plain1 : Cert.LibDot.IsPlain dot_S2000x64_S64x128_S2000x128_1_0_0_1_n_n := ⟨rfl, rfl, rfl, rfl, rfl, rfl⟩
theorem plain2 : Cert.LibDot.IsPlain dot_S2000x128_S128x1_S2000x1_1_0_0_1_n_n := ⟨rfl, rfl, rfl, rfl, rfl, rfl⟩

/-- Slab `n` of a [4,A,B] array, loaded as [1,A,B] and viewed [A,B], read at (p, q): the array at (n, p, q). -/
theorem slab_apply {A B : Nat} (x : Vec Ideal ⟨3, ![4, A, B]⟩ .f32) (n : Fin 4)
    (inb : ∀ a, (![n.val, 0, 0] : Fin 3 → Nat) a + (![1, A, B] : Fin 3 → Nat) a ≤ (⟨3, ![4, A, B]⟩ : Shape).size a)
    (h : (⟨3, ![1, A, B]⟩ : Shape).ShapeCasts ⟨2, ![A, B]⟩) (p : Fin A) (q : Fin B) :
    shapeCast (⟨2, ![A, B]⟩ : Shape) (View.ld (Val := Elt Ideal) x (Rect.unit (s := ⟨3, ![4, A, B]⟩) ![n.val, 0, 0] ![1, A, B] inb)) h (ix2 p q)
      = x (ix3 n p q) := by
  refine (shapeCast_dropUnit_apply (![A, B]) _ h (ix2 p q)).trans ?_
  show x _ = x _
  refine congrArg x (funext fun a => Fin.ext ?_)
  match a with
  | ⟨0, _⟩ => show n.val + 1 * 0 = n.val; omega
  | ⟨1, _⟩ => show 0 + 1 * p.val = p.val; omega
  | ⟨2, _⟩ => show 0 + 1 * q.val = q.val; omega

/-- One order's product, at an entry: slab `n` of the tile against weight matrix `n`, both narrowed to bf16 (the
    identity here), into a zero accumulator, is the plain sum of products. -/
theorem slab_prod (x0 : Vec Ideal S4x2000x64 .f32) (x1 : Vec Ideal S4x64x128 .f32) (n : Fin 4)
    (inbT : ∀ a, (![n.val, 0, 0] : Fin 3 → Nat) a + S1x2000x64.size a ≤ S4x2000x64.size a)
    (inbW : ∀ a, (![n.val, 0, 0] : Fin 3 → Nat) a + S1x64x128.size a ≤ S4x64x128.size a) (p : Fin 2000) (j : Fin 128) :
    matmul (F := Ideal) dot_S2000x64_S64x128_S2000x128_1_0_0_1_n_n none
        (truncf .bf16 (shapeCast S2000x64 (View.ld x0 (Rect.unit (s := S4x2000x64) ![n.val, 0, 0] S1x2000x64.size inbT)) shapeCasts_S1x2000x64_S2000x64) bitsLt_bf16_f32)
        (truncf .bf16 (shapeCast S64x128 (View.ld x1 (Rect.unit (s := S4x64x128) ![n.val, 0, 0] S1x64x128.size inbW)) shapeCasts_S1x64x128_S64x128) bitsLt_bf16_f32)
        (constant S2000x128 .f32 0x00000000#32) (ix2 p j)
      = ∑ k : Fin 64, x0 (ix3 n p k) * x1 (ix3 n k j) := by
  refine (Cert.LibDot.matmul_zero_apply dot_S2000x64_S64x128_S2000x128_1_0_0_1_n_n plain1 none _ _ p j).trans ?_
  refine Finset.sum_congr rfl fun k _ => ?_
  exact congrArg₂ (· * ·) (slab_apply x0 n inbT shapeCasts_S1x2000x64_S2000x64 p k)
    (slab_apply x1 n inbW shapeCasts_S1x64x128_S64x128 k j)

/-- The four accumulated products plus the repeated bias row, under tanh, at (p, j): hidden unit j of row p. -/
theorem hidden_entry (x0 : Vec Ideal S4x2000x64 .f32) (x1 : Vec Ideal S4x64x128 .f32) (x2 : Vec Ideal S1x128 .f32) (p : Fin 2000) (j : Fin 128) :
    tanh (F := Ideal) (addf (addf (k0_pay2 (View.ld x0 rT0) (View.ld x1 rW0) (View.ld x0 rT1) (View.ld x1 rW1) (View.ld x0 rT2) (View.ld x1 rW2))
        (matmul dot_S2000x64_S64x128_S2000x128_1_0_0_1_n_n none (k0_pay3 (View.ld x0 rT3)) (k0_pay4 (View.ld x1 rW3)) (constant S2000x128 .f32 0x00000000#32)))
        (broadcastTo S2000x128 (shapeCast S1x128 (View.ld x2 rB) shapeCasts_S1x128_S1x128) broadcasts_S1x128_S2000x128)) (ix2 p j)
      = hidden (fun k => x0 (ix3 0 p k)) (fun k => x0 (ix3 1 p k)) (fun k => x0 (ix3 2 p k)) (fun k => x0 (ix3 3 p k))
          (fun k j => x1 (ix3 0 k j)) (fun k j => x1 (ix3 1 k j)) (fun k j => x1 (ix3 2 k j)) (fun k j => x1 (ix3 3 k j))
          (fun j => x2 (ix2 0 j)) j := by
  have e0 := slab_prod x0 x1 0 inb_S4x2000x64_S1x2000x64_0_0_0 inb_S4x64x128_S1x64x128_0_0_0 p j
  have e1 := slab_prod x0 x1 1 inb_S4x2000x64_S1x2000x64_1_0_0 inb_S4x64x128_S1x64x128_1_0_0 p j
  have e2 := slab_prod x0 x1 2 inb_S4x2000x64_S1x2000x64_2_0_0 inb_S4x64x128_S1x64x128_2_0_0 p j
  have e3 := slab_prod x0 x1 3 inb_S4x2000x64_S1x2000x64_3_0_0 inb_S4x64x128_S1x64x128_3_0_0 p j
  have eb : broadcastTo S2000x128 (shapeCast S1x128 (View.ld x2 rB) shapeCasts_S1x128_S1x128) broadcasts_S1x128_S2000x128 (ix2 p j)
      = x2 (ix2 0 j) := by
    refine (broadcastTo_apply _ broadcasts_S1x128_S2000x128 (ix2 p j) (ix2 0 j) (fun a => ?_)).trans ?_
    · match a with
      | ⟨0, _⟩ => rfl
      | ⟨1, _⟩ => rfl
    · refine (congrFun (shapeCast_self (s := S1x128) (View.ld x2 rB) shapeCasts_S1x128_S1x128) (ix2 0 j)).trans ?_
      show x2 _ = x2 _
      refine congrArg x2 (funext fun a => Fin.ext ?_)
      match a with
      | ⟨0, _⟩ => show 0 + 1 * 0 = 0; omega
      | ⟨1, _⟩ => show 0 + 1 * j.val = j.val; omega
  show Ideal.tanh (((((Ideal.ofBits .f32 0x00000000#32 + _) + _) + _) + _) + _) = _
  unfold Cert.HeadSpec.hidden
  rw [Ideal.ofBits_zero_f32, zero_add]
  exact congrArg Ideal.tanh (congrArg₂ (· + ·) (congrArg₂ (· + ·) (congrArg₂ (· + ·) (congrArg₂ (· + ·) e0 e1) e2) e3) eb)

/-- THE STORED VALUE AT ROW p: the row formula at the row-p entries of the four slabs. -/
theorem pay_entry (x0 : Vec Ideal S4x2000x64 .f32) (x1 : Vec Ideal S4x64x128 .f32) (x2 : Vec Ideal S1x128 .f32)
    (x3 : Vec Ideal S128x1 .f32) (x4 : Vec Ideal S1x1 .f32) (p : Fin 2000) :
    out0_5 (F := Ideal) x0 x1 x2 x3 x4 (ix2 p 0)
      = headRow (fun k => x0 (ix3 0 p k)) (fun k => x0 (ix3 1 p k)) (fun k => x0 (ix3 2 p k)) (fun k => x0 (ix3 3 p k))
          (fun k j => x1 (ix3 0 k j)) (fun k j => x1 (ix3 1 k j)) (fun k j => x1 (ix3 2 k j)) (fun k j => x1 (ix3 3 k j))
          (fun j => x2 (ix2 0 j)) (fun j => x3 (ix2 j 0)) (x4 (ix2 0 0)) := by
  have hz : (![0, 0] : Fin 2 → Nat) = fun _ => 0 := funext fun a => by fin_cases a <;> rfl
  unfold out0_5
  rw [View.canon_unit_zero hz]
  unfold k0_pay1
  have eo : broadcastTo S2000x1 (shapeCast S1x1 (View.ld x4 rC) shapeCasts_S1x1_S1x1) broadcasts_S1x1_S2000x1 (ix2 p 0)
      = x4 (ix2 0 0) := by
    refine (broadcastTo_apply _ broadcasts_S1x1_S2000x1 (ix2 p 0) (ix2 0 0) (fun a => ?_)).trans ?_
    · match a with
      | ⟨0, _⟩ => rfl
      | ⟨1, _⟩ => rfl
    · refine (congrFun (shapeCast_self (s := S1x1) (View.ld x4 rC) shapeCasts_S1x1_S1x1) (ix2 0 0)).trans ?_
      show x4 _ = x4 _
      refine congrArg x4 (funext fun a => Fin.ext ?_)
      match a with
      | ⟨0, _⟩ => show 0 + 1 * 0 = 0; omega
      | ⟨1, _⟩ => show 0 + 1 * 0 = 0; omega
  have eh : ∀ j : Fin 128, (truncf (F := Ideal) .bf16 (View.ld x3 rH) bitsLt_bf16_f32 : FVec Ideal S128x1 .bf16) (ix2 j 0) = x3 (ix2 j 0) := fun j => by
    show x3 _ = x3 _
    refine congrArg x3 (funext fun a => Fin.ext ?_)
    match a with
    | ⟨0, _⟩ => show 0 + 1 * j.val = j.val; omega
    | ⟨1, _⟩ => show 0 + 1 * 0 = 0; omega
  show matmul (F := Ideal) dot_S2000x128_S128x1_S2000x1_1_0_0_1_n_n none _ _ (constant S2000x1 .f32 0x00000000#32) (ix2 p 0) + _ = _
  unfold headRow
  refine congrArg₂ (· + ·) ?_ eo
  refine (Cert.LibDot.matmul_zero_apply dot_S2000x128_S128x1_S2000x1_1_0_0_1_n_n plain2 none _ _ p 0).trans ?_
  refine Finset.sum_congr rfl fun j _ => ?_
  exact congrArg₂ (· * ·) (hidden_entry x0 x1 x2 p j) (eh j)

end Cert.KernelIdeal.Val

end
-- ==== Proof.KernelValue.lean ====
/-
  What the kernel program's result holds after its run, on the extended reals.

  The region's output is the [50000,1] array whose blocks are the 25 row tiles of 2000 rows: point t writes back rows
  2000 t .. 2000 t + 1999.  Row p of the block written at point t is the row formula of `HeadSpec` at row p of the
  tile's four slabs, and slab n of the tile is rows 2000 t .. of slice n of the stacked array; the weights, the bias
  row, the head's column and its offset are read whole at every point.  So the output array ends holding, at row r,
  the row formula at row r of the four stacked slices as the region finds them; the 25 tiles cover all 50000 rows.
  The final host operation re-lays that [50000,1] array out as [50000].
-/
import proofs.«153301_j68375879352861_1_alg».proof.Proof.KernelIdealFrame
import proofs.«153301_j68375879352861_1_alg».proof.Proof.KernelPayload
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Cert.KernelIdeal.Frm Cert.HeadSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region reads, as functions of their indices -/

/-- The stacked array [4,50000,64], the weights [4,64,128], the bias row [1,128], the head's column [128,1] and its
    offset [1,1], as the region finds them on core `c`. -/
abbrev stk (c : Dev nD) : S4x50000x64.Idx → EReal := V m c main_v79
abbrev wts (c : Dev nD) : S4x64x128.Idx → EReal := V m c main_arg2
abbrev bia (c : Dev nD) : S1x128.Idx → EReal := V m c main_v80
abbrev hed (c : Dev nD) : S128x1.Idx → EReal := V m c main_arg4
abbrev ofs (c : Dev nD) : S1x1.Idx → EReal := V m c main_v81

/-- Row `r` of the output: the row formula at row r of the four stacked slices. -/
def rowOut (c : Dev nD) (r : Fin 50000) : EReal :=
  headRow (fun k => stk m c (ix3 0 r k)) (fun k => stk m c (ix3 1 r k)) (fun k => stk m c (ix3 2 r k)) (fun k => stk m c (ix3 3 r k))
    (fun k j => wts m c (ix3 0 k j)) (fun k j => wts m c (ix3 1 k j)) (fun k j => wts m c (ix3 2 k j)) (fun k j => wts m c (ix3 3 k j))
    (fun j => bia m c (ix2 0 j)) (fun j => hed m c (ix2 j 0)) (ofs m c (ix2 0 0))

/-- The [50000,1] array the region's output ends holding. -/
def outArr (c : Dev nD) : S50000x1.Idx → EReal := fun i => rowOut m c ⟨(i 0).val, idx2_lt0 i⟩

/-! ## The windows' index maps over the grid -/

/-- Decided over the 25 points: the stacked array's tile and the output's move with the point along the row axis,
    every other window stays at block 0. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks at a point -/

/-- The tile of the stacked array at point `t`: slab n, row p is slice n, row 2000 t + p. -/
theorem iblk0_apply (c : Dev nD) (t : Fin cfg0.N) (n : Fin 4) (p : Fin 2000) (k : Fin 64) (r : Fin 50000)
    (hr : r.val = 2000 * t.val + p.val) :
    (iblk m c 0 t : Vec Ideal S4x2000x64 .f32) (ix3 n p k) = stk m c (ix3 n r k) := by
  obtain ⟨h0, h1, h2, -⟩ := idx_facts t
  unfold iblk
  rw [View.read_apply]
  show stk m c _ = stk m c _
  refine congrArg (stk m c) (funext fun a => Fin.ext ?_)
  match a with
  | ⟨0, _⟩ => show win0_0.index t (0 : Fin 3) * 4 + 1 * n.val = n.val; rw [h0]; omega
  | ⟨1, _⟩ => show win0_0.index t (1 : Fin 3) * 2000 + 1 * p.val = r.val; rw [h1, hr]; omega
  | ⟨2, _⟩ => show win0_0.index t (2 : Fin 3) * 64 + 1 * k.val = k.val; rw [h2]; omega

/-- The weights, whole at every point. -/
theorem iblk1_apply (c : Dev nD) (t : Fin cfg0.N) (n : Fin 4) (k : Fin 64) (j : Fin 128) :
    (iblk m c 1 t : Vec Ideal S4x64x128 .f32) (ix3 n k j) = wts m c (ix3 n k j) := by
  obtain ⟨-, -, -, h0, h1, h2, -⟩ := idx_facts t
  unfold iblk
  rw [View.read_apply]
  show wts m c _ = wts m c _
  refine congrArg (wts m c) (funext fun a => Fin.ext ?_)
  match a with
  | ⟨0, _⟩ => show win0_1.index t (0 : Fin 3) * 4 + 1 * n.val = n.val; rw [h0]; omega
  | ⟨1, _⟩ => show win0_1.index t (1 : Fin 3) * 64 + 1 * k.val = k.val; rw [h1]; omega
  | ⟨2, _⟩ => show win0_1.index t (2 : Fin 3) * 128 + 1 * j.val = j.val; rw [h2]; omega

/-- The bias row, whole at every point. -/
theorem iblk2_apply (c : Dev nD) (t : Fin cfg0.N) (j : Fin 128) :
    (iblk m c 2 t : Vec Ideal S1x128 .f32) (ix2 0 j) = bia m c (ix2 0 j) := by
  obtain ⟨-, -, -, -, -, -, h0, h1, -⟩ := idx_facts t
  unfold iblk
  rw [View.read_apply]
  show bia m c _ = bia m c _
  refine congrArg (bia m c) (funext fun a => Fin.ext ?_)
  match a with
  | ⟨0, _⟩ => show win0_2.index t (0 : Fin 2) * 1 + 1 * 0 = 0; rw [h0]
  | ⟨1, _⟩ => show win0_2.index t (1 : Fin 2) * 128 + 1 * j.val = j.val; rw [h1]; omega

/-- The head's column, whole at every point. -/
theorem iblk3_apply (c : Dev nD) (t : Fin cfg0.N) (j : Fin 128) :
    (iblk m c 3 t : Vec Ideal S128x1 .f32) (ix2 j 0) = hed m c (ix2 j 0) := by
  obtain ⟨-, -, -, -, -, -, -, -, h0, h1, -⟩ := idx_facts t
  unfold iblk
  rw [View.read_apply]
  show hed m c _ = hed m c _
  refine congrArg (hed m c) (funext fun a => Fin.ext ?_)
  match a with
  | ⟨0, _⟩ => show win0_3.index t (0 : Fin 2) * 128 + 1 * j.val = j.val; rw [h0]; omega
  | ⟨1, _⟩ => show win0_3.index t (1 : Fin 2) * 1 + 1 * 0 = 0; rw [h1]

/-- The head's offset, whole at every point. -/
theorem iblk4_apply (c : Dev nD) (t : Fin cfg0.N) :
    (iblk m c 4 t : Vec Ideal S1x1 .f32) (ix2 0 0) = ofs m c (ix2 0 0) := by
  obtain ⟨-, -, -, -, -, -, -, -, -, -, h0, h1, -⟩ := idx_facts t
  unfold iblk
  rw [View.read_apply]
  show ofs m c _ = ofs m c _
  refine congrArg (ofs m c) (funext fun a => Fin.ext ?_)
  match a with
  | ⟨0, _⟩ => show win0_4.index t (0 : Fin 2) * 1 + 1 * 0 = 0; rw [h0]
  | ⟨1, _⟩ => show win0_4.index t (1 : Fin 2) * 1 + 1 * 0 = 0; rw [h1]

/-! ## What a point writes back -/

/-- Row p of the block the body leaves at point `t` is row 2000 t + p of the output array. -/
theorem block_row (c : Dev nD) (t : Fin cfg0.N) (p : Fin 2000) (r : Fin 50000) (hr : r.val = 2000 * t.val + p.val) :
    out0_5 (F := Ideal) (iblk m c 0 t) (iblk m c 1 t) (iblk m c 2 t) (iblk m c 3 t) (iblk m c 4 t) (ix2 p 0) = rowOut m c r := by
  refine (pay_entry (iblk m c 0 t) (iblk m c 1 t) (iblk m c 2 t) (iblk m c 3 t) (iblk m c 4 t) p).trans ?_
  unfold rowOut
  simp only [iblk0_apply m c t _ p _ r hr, iblk1_apply m c t, iblk2_apply m c t, iblk3_apply m c t, iblk4_apply m c t]

/-- The same at any index of the block. -/
theorem block_entry (c : Dev nD) (t : Fin cfg0.N) (y : S2000x1.Idx) (i : S50000x1.Idx)
    (hi : (i 0).val = 2000 * t.val + (y 0).val) :
    out0_5 (F := Ideal) (iblk m c 0 t) (iblk m c 1 t) (iblk m c 2 t) (iblk m c 3 t) (iblk m c 4 t) y = outArr m c i := by
  obtain ⟨p, q, rfl⟩ : ∃ (p : Fin 2000) (q : Fin 1), y = ix2 p q := ⟨y 0, y 1, eq_ix2 y⟩
  obtain rfl : q = 0 := Subsingleton.elim _ _
  exact block_row m c t p ⟨(i 0).val, idx2_lt0 i⟩ hi

/-- WHAT POINT `t` WRITES BACK is block `t` of the output array. -/
theorem flushed5_eq (c : Dev nD) (t : Fin cfg0.N) :
    (dats m 0 c).flushed 5 t = ((cfg0.win 5).blk t).view.read (Elt Ideal) (outArr m c) := by
  obtain ⟨-, -, -, -, -, -, -, -, -, -, -, -, h0, h1⟩ := idx_facts t
  show (cfg0.win 5).cut (grid0.coords t) ((dats m 0 c).after 5 t) = _
  rw [after0_5]
  funext y
  refine (block_entry m c t y (((cfg0.win 5).blk t).view.emb y) ?_).trans rfl
  show win0_5.index t (0 : Fin 2) * 2000 + 1 * (y 0).val = 2000 * t.val + (y 0).val
  rw [h0]; omega

/-- Every row of the array is in the block of the point its row index over 2000 names. -/
theorem cover5 (i : S50000x1.Idx) :
    ∃ t : Fin cfg0.N, (cfg0.win 5).flush t = true ∧ i ∈ ((cfg0.win 5).blk t).view.set := by
  have hi0 : (i 0).val < 50000 := idx2_lt0 i
  have hi1 : (i 1).val < 1 := idx2_lt1 i
  have hN : cfg0.N = 25 := N_0
  let t : Fin cfg0.N := ⟨(i 0).val / 2000, by rw [hN]; omega⟩
  have ht : t.val = (i 0).val / 2000 := rfl
  obtain ⟨-, -, -, -, -, -, -, -, -, -, -, -, h0, h1⟩ := idx_facts t
  refine ⟨t, flush0_5 t, ?_⟩
  show i ∈ ((View.whole main_v82).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; rw [h0, ht]; omega
  | ⟨1, _⟩ => show win0_5.index t (1 : Fin 2) * 1 ≤ (i 1).val ∧ (i 1).val < win0_5.index t (1 : Fin 2) * 1 + 1; rw [h1]; omega

/-- THE OUTPUT ARRAY after the region. -/
theorem final5 (c : Dev nD) : (dats m 0 c).arrAt 5 cfg0.N = outArr m c :=
  (dats m 0 c).arrAt_eq_of_cover 5 (outArr m c) (fun t _ => flushed5_eq m c t) (fun i => cover5 i)

/-! ## The final re-layout, and the run -/

/-- The program's result: the output array re-laid out as [50000]. -/
theorem tail_v83 (c : Dev nD) :
    Pipeline.afterTail₀ cfgs (dats m) 0 (V0 m) [hostOps1] c main_v83
      = shapeCast S50000 (outArr m c) shapeCasts_S50000x1_S50000 := by
  unfold Pipeline.afterTail₀
  show StableHlo.after hostOps1 _ (Proc.devRef .tc main_v83) = _
  after_results
  have e := (Pipeline.withArrays_arr spec0 launch0.win.arr_inj c (V0 m c) (fun w => (dats m 0 c).arrAt w cfg0.N) 5).trans (final5 m c)
  exact congrArg (fun f => shapeCast S50000 f shapeCasts_S50000x1_S50000) e

/-- Every weakly fair execution of the kernel program terminates with its result at the re-laid-out output array
    and its six arguments unchanged. -/
theorem run : θ_run defs (onTc (τ := τ) (main (F := Ideal))) ⟨m, fun _ => 0, ρ⟩ fun r => ∀ c : Dev nD,
      r.2.mem ((c.tc : Thread nD τ).loc main_v83) = shapeCast S50000 (outArr m c) shapeCasts_S50000x1_S50000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨((h c).2 main_v83 (Pipeline.mem_restRefs_of main_v83 (by decide) (by decide))).trans (tail_v83 m c),
        post_args m (dats m) (A_eq m) r h c⟩)
    (run_main m ρ)

end Cert.KernelIdeal.Val

end
-- ==== Proof.KernelPrefix.lean ====
/-
  What the kernel program's host prefix leaves in the buffers the region reads, in the reference's own terms.

  The prefix is three stretches: eighteen operations up to the degree's reciprocal square root, the three operations
  of the outlined `where` that zeroes it at isolated nodes, and eighty-three operations: the edge weights, the three
  sparse products of the Chebyshev recurrence, the four arrays each given a leading unit axis and joined along it, and
  the bias and the head's offset re-laid out.  Stretch by stretch, with the contents each stretch starts from kept as
  one unopened valuation, every buffer the next stretch reads holds what the reference's stage of the same name holds:
  the row and column indices, the degree test and the reciprocal root, the normalisation, and from them the arrays
  T_1, T_2, T_3.  The last seven operations are read by themselves over the contents before them.
-/
import proofs.«153301_j68375879352861_1_alg».proof.Proof.KernelIdealFrame
import proofs.«153301_j68375879352861_1_alg».proof.Proof.RefRead
import Idealize.ShloMosaic.Lib.StableHlo.Run
import Idealize.ShloMosaic.Lib.Pipeline.Frame

set_option maxRecDepth 16384

noncomputable section

namespace Cert.KernelIdeal.Pre

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

/-- The features and the edge list as launched on core `c`. -/
abbrev a0 (c : Dev nD) : S50000x64.Idx → EReal := m ((c.tc : Thread nD τ).loc main_arg0)
abbrev a1 (c : Dev nD) : (⟨S2x800000, .i32⟩ : BufTy).Contents (Elt Ideal) := m ((c.tc : Thread nD τ).loc main_arg1)

/-! ## The three stretches -/

/-- The buffers after the first stretch, and after the outlined `where`. -/
def X0 (c : Dev nD) : Valuation τ sig (Elt Ideal) := StableHlo.after hostOps0 (fun b => m (c, b))
def X1 (c : Dev nD) : Valuation τ sig (Elt Ideal) := StableHlo.after hostOps0_1 (X0 m c)

theorem V0_stages (c : Dev nD) : V0 m c = StableHlo.after hostOps0_2 (X1 m c) := by
  show StableHlo.after (List.flatten [hostOps0, hostOps0_1, hostOps0_2]) _ = _
  unfold X1 X0
  rw [← StableHlo.after_append, ← StableHlo.after_append]
  refine congrArg (fun l => StableHlo.after l _) ?_
  simp only [List.flatten_cons, List.flatten_nil, List.append_nil, List.append_assoc]

/-! ## After the first stretch -/

def R0_main_v1 (c : Dev nD) : Buf (Elt Ideal) ((c.tc : Thread nD τ).loc main_v1) := Cert.ReferenceIdeal.ReadP.val_main_v1 (F := Ideal) (a1 m c)
theorem s0_main_v1 (c : Dev nD) : X0 m c (Proc.devRef .tc main_v1) = R0_main_v1 m c := by
  unfold X0
  simp only [hostOps0]
  after_results_simp
  unfold R0_main_v1
  rfl

def R0_main_v3 (c : Dev nD) : Buf (Elt Ideal) ((c.tc : Thread nD τ).loc main_v3) := Cert.ReferenceIdeal.ReadP.val_main_v3 (F := Ideal) (a1 m c)
theorem s0_main_v3 (c : Dev nD) : X0 m c (Proc.devRef .tc main_v3) = R0_main_v3 m c := by
  unfold X0
  simp only [hostOps0]
  after_results_simp
  unfold R0_main_v3
  rfl

def R0_main_v9 (c : Dev nD) : Buf (Elt Ideal) ((c.tc : Thread nD τ).loc main_v9) := Cert.ReferenceIdeal.ReadP.val_main_v9 (F := Ideal) (a1 m c)
theorem s0_main_v9 (c : Dev nD) : X0 m c (Proc.devRef .tc main_v9) = R0_main_v9 m c := by
  unfold X0
  simp only [hostOps0]
  after_results_simp
  unfold R0_main_v9
  rfl

def R0_main_v12 (c : Dev nD) : Buf (Elt Ideal) ((c.tc : Thread nD τ).loc main_v12) := Cert.ReferenceIdeal.ReadP.val_main_v12 (F := Ideal) (a1 m c)
theorem s0_main_v12 (c : Dev nD) : X0 m c (Proc.devRef .tc main_v12) = R0_main_v12 m c := by
  unfold X0
  simp only [hostOps0]
  after_results_simp
  unfold R0_main_v12
  rfl

def R0_main_cst_3 (c : Dev nD) : Buf (Elt Ideal) ((c.tc : Thread nD τ).loc main_cst_3) := Cert.ReferenceIdeal.ReadP.val_main_cst_3 (F := Ideal)
theorem s0_main_cst_3 (c : Dev nD) : X0 m c (Proc.devRef .tc main_cst_3) = R0_main_cst_3 c := by
  unfold X0
  simp only [hostOps0]
  after_results_simp
  unfold R0_main_cst_3
  rfl

theorem s0_main_arg0 (c : Dev nD) : X0 m c (Proc.devRef .tc main_arg0) = m ((c.tc : Thread nD τ).loc main_arg0) := by
  unfold X0
  simp only [hostOps0]
  after_results_simp

/-! ## After the outlined `where` -/

theorem s1_main_v1 (c : Dev nD) : X1 m c (Proc.devRef .tc main_v1) = X0 m c (Proc.devRef .tc main_v1) := by
  unfold X1
  generalize X0 m c = Y
  simp only [hostOps0_1]
  after_results_simp

theorem s1_main_v3 (c : Dev nD) : X1 m c (Proc.devRef .tc main_v3) = X0 m c (Proc.devRef .tc main_v3) := by
  unfold X1
  generalize X0 m c = Y
  simp only [hostOps0_1]
  after_results_simp

theorem s1_main_arg0 (c : Dev nD) : X1 m c (Proc.devRef .tc main_arg0) = X0 m c (Proc.devRef .tc main_arg0) := by
  unfold X1
  generalize X0 m c = Y
  simp only [hostOps0_1]
  after_results_simp

/-- The outlined function's typed buffers are the buffers themselves: each transport along a buffer's type equation is
    the identity. -/
theorem toBuf_v13 (X : (⟨S50000, .f32⟩ : BufTy).Contents (Elt Ideal)) :
    ((TRef.of (T := ⟨S50000, .f32⟩) main_v13).toBuf X : (main_v13 : Ref sig .tc).ty.Contents (Elt Ideal)) = X := rfl
theorem ofBuf_v9 (X : (main_v9 : Ref sig .tc).ty.Contents (Elt Ideal)) :
    ((TRef.of (T := ⟨S50000, .i1⟩) main_v9).ofBuf X : (⟨S50000, .i1⟩ : BufTy).Contents (Elt Ideal)) = X := rfl
theorem ofBuf_v12 (X : (main_v12 : Ref sig .tc).ty.Contents (Elt Ideal)) :
    ((TRef.of (T := ⟨S50000, .f32⟩) main_v12).ofBuf X : (⟨S50000, .f32⟩ : BufTy).Contents (Elt Ideal)) = X := rfl
theorem ofBuf_cst3 (X : (main_cst_3 : Ref sig .tc).ty.Contents (Elt Ideal)) :
    ((TRef.of (T := ⟨S_, .f32⟩) main_cst_3).ofBuf X : (⟨S_, .f32⟩ : BufTy).Contents (Elt Ideal)) = X := rfl

/-- The normalisation: the reciprocal root where the degree is positive, zero elsewhere. -/
def R1_main_v13 (c : Dev nD) : Buf (Elt Ideal) ((c.tc : Thread nD τ).loc main_v13) := Cert.ReferenceIdeal.ReadP.val_main_v13 (F := Ideal) (a1 m c)
theorem s1_main_v13 (c : Dev nD) : X1 m c (Proc.devRef .tc main_v13) = R1_main_v13 m c := by
  have e : X1 m c (Proc.devRef .tc main_v13)
      = (TRef.of (T := ⟨S50000, .f32⟩) main_v13).toBuf (select ((TRef.of (T := ⟨S50000, .i1⟩) main_v9).ofBuf (X0 m c (Proc.devRef .tc main_v9)))
          ((TRef.of (T := ⟨S50000, .f32⟩) main_v12).ofBuf (X0 m c (Proc.devRef .tc main_v12)))
          (broadcastInDim S50000 ![] bcast_S_S50000 (id ((TRef.of (T := ⟨S_, .f32⟩) main_cst_3).ofBuf (X0 m c (Proc.devRef .tc main_cst_3)))))) := by
    unfold X1
    generalize X0 m c = Y
    simp only [hostOps0_1]
    after_results_simp
    rfl
  rw [e, s0_main_v9, s0_main_v12, s0_main_cst_3, toBuf_v13, ofBuf_v9, ofBuf_v12, ofBuf_cst3]
  unfold R0_main_v9 R0_main_v12 R0_main_cst_3 R1_main_v13
  rfl

/-! ## The recurrence's arrays -/

def T1 (c : Dev nD) : Buf (Elt Ideal) ((c.tc : Thread nD τ).loc main_v42) := Cert.ReferenceIdeal.ReadP.val_main_v45 (F := Ideal) (a0 m c) (a1 m c)
set_option maxHeartbeats 4000000 in
theorem T1_eq (c : Dev nD) : V m c main_v42 = T1 m c := by
  show V0 m c (Proc.devRef .tc main_v42) = _
  rw [V0_stages]
  simp only [hostOps0_2]
  after_results_simp
  rw [s1_main_v13, s1_main_v1, s1_main_v3, s1_main_arg0, s0_main_v1, s0_main_v3, s0_main_arg0]
  unfold R1_main_v13 R0_main_v1 R0_main_v3 T1
  rfl

def T2 (c : Dev nD) : Buf (Elt Ideal) ((c.tc : Thread nD τ).loc main_v58) := Cert.ReferenceIdeal.ReadP.val_main_v65 (F := Ideal) (a0 m c) (a1 m c)
set_option maxHeartbeats 4000000 in
theorem T2_eq (c : Dev nD) : V m c main_v58 = T2 m c := by
  show V0 m c (Proc.devRef .tc main_v58) = _
  rw [V0_stages]
  simp only [hostOps0_2]
  after_results_simp
  rw [s1_main_v13, s1_main_v1, s1_main_v3, s1_main_arg0, s0_main_v1, s0_main_v3, s0_main_arg0]
  unfold R1_main_v13 R0_main_v1 R0_main_v3 T2
  rfl

def T3 (c : Dev nD) : Buf (Elt Ideal) ((c.tc : Thread nD τ).loc main_v74) := Cert.ReferenceIdeal.ReadP.val_main_v85 (F := Ideal) (a0 m c) (a1 m c)
set_option maxHeartbeats 4000000 in
theorem T3_eq (c : Dev nD) : V m c main_v74 = T3 m c := by
  show V0 m c (Proc.devRef .tc main_v74) = _
  rw [V0_stages]
  simp only [hostOps0_2]
  after_results_simp
  rw [s1_main_v13, s1_main_v1, s1_main_v3, s1_main_arg0, s0_main_v1, s0_main_v3, s0_main_arg0]
  unfold R1_main_v13 R0_main_v1 R0_main_v3 T3
  rfl

/-! ## The last seven operations -/

/-- The four lead-axis layouts, the join, and the two re-layouts. -/
abbrev tailOps : List (HloOp τ sig (Elt Ideal)) :=
  [ StableHlo.unary main_arg0 main_v75 (broadcastInDim S1x50000x64 ![1, 2] bcast_S50000x64_S1x50000x64_1_2 : (⟨S50000x64, .f32⟩ : BufTy).Contents (Elt Ideal) → (⟨S1x50000x64, .f32⟩ : BufTy).Contents (Elt Ideal)),
    StableHlo.unary main_v42 main_v76 (broadcastInDim S1x50000x64 ![1, 2] bcast_S50000x64_S1x50000x64_1_2 : (⟨S50000x64, .f32⟩ : BufTy).Contents (Elt Ideal) → (⟨S1x50000x64, .f32⟩ : BufTy).Contents (Elt Ideal)),
    StableHlo.unary main_v58 main_v77 (broadcastInDim S1x50000x64 ![1, 2] bcast_S50000x64_S1x50000x64_1_2 : (⟨S50000x64, .f32⟩ : BufTy).Contents (Elt Ideal) → (⟨S1x50000x64, .f32⟩ : BufTy).Contents (Elt Ideal)),
    StableHlo.unary main_v74 main_v78 (broadcastInDim S1x50000x64 ![1, 2] bcast_S50000x64_S1x50000x64_1_2 : (⟨S50000x64, .f32⟩ : BufTy).Contents (Elt Ideal) → (⟨S1x50000x64, .f32⟩ : BufTy).Contents (Elt Ideal)),
    StableHlo.nary ![main_v75, main_v76, main_v77, main_v78] main_v79 (fun u => concatenate S4x50000x64 0 [⟨S1x50000x64, u 0⟩, ⟨S1x50000x64, u 1⟩, ⟨S1x50000x64, u 2⟩, ⟨S1x50000x64, u 3⟩] concatenates_S1x50000x64_S1x50000x64_S1x50000x64_S1x50000x64_S4x50000x64_d0),
    StableHlo.reshape main_arg3 main_v80 rfl shapeCasts_S128_S1x128,
    StableHlo.reshape main_arg5 main_v81 rfl shapeCasts_S1_S1x1 ]

theorem drop_eq : (hostOps0_2 (F := Ideal)).drop 76 = tailOps := rfl

/-- The buffers before those seven. -/
def W (c : Dev nD) : Valuation τ sig (Elt Ideal) :=
  StableHlo.after (hostOps0 ++ (hostOps0_1 ++ (hostOps0_2 (F := Ideal)).take 76)) (fun b => m (c, b))

theorem V0_split (c : Dev nD) : V0 m c = StableHlo.after tailOps (W m c) := by
  show StableHlo.after (List.flatten [hostOps0, hostOps0_1, hostOps0_2]) _ = _
  unfold W
  rw [← StableHlo.after_append, ← drop_eq]
  refine congrArg (fun l => StableHlo.after l _) ?_
  simp only [List.flatten_cons, List.flatten_nil, List.append_nil, List.append_assoc, List.take_append_drop]

/-- A buffer the seven do not write holds what it held before them. -/
theorem W_keep (c : Dev nD) (b : Ref sig .tc) (hb : ∀ op ∈ tailOps, Proc.devRef .tc b ∉ op.writes) :
    W m c (Proc.devRef .tc b) = V m c b := by
  show _ = V0 m c _
  rw [V0_split, StableHlo.after_of_forall_not_mem tailOps (W m c) hb]

theorem tail_keeps (b : Ref sig .tc) (h75 : b ≠ main_v75) (h76 : b ≠ main_v76) (h77 : b ≠ main_v77) (h78 : b ≠ main_v78)
    (h79 : b ≠ main_v79) (h80 : b ≠ main_v80) (h81 : b ≠ main_v81) : ∀ op ∈ tailOps, Proc.devRef .tc b ∉ op.writes :=
  List.forall_iff_forall_mem.mp (by
    simp only [tailOps, List.Forall, StableHlo.unary_writes, StableHlo.reshape_writes, StableHlo.nary_writes, Finset.mem_singleton]
    exact ⟨StableHlo.devRef_ne_of_ne h75, StableHlo.devRef_ne_of_ne h76, StableHlo.devRef_ne_of_ne h77, StableHlo.devRef_ne_of_ne h78,
      StableHlo.devRef_ne_of_ne h79, StableHlo.devRef_ne_of_ne h80, StableHlo.devRef_ne_of_ne h81⟩)

/-- The stacked array over the contents before the seven: the four arrays, each with a leading unit axis, joined. -/
def stkW (c : Dev nD) (Y : Valuation τ sig (Elt Ideal)) : Buf (Elt Ideal) ((c.tc : Thread nD τ).loc main_v79) :=
  concatenate S4x50000x64 0
    [⟨S1x50000x64, broadcastInDim S1x50000x64 ![1, 2] bcast_S50000x64_S1x50000x64_1_2 (Y (Proc.devRef .tc main_arg0))⟩,
     ⟨S1x50000x64, broadcastInDim S1x50000x64 ![1, 2] bcast_S50000x64_S1x50000x64_1_2 (Y (Proc.devRef .tc main_v42))⟩,
     ⟨S1x50000x64, broadcastInDim S1x50000x64 ![1, 2] bcast_S50000x64_S1x50000x64_1_2 (Y (Proc.devRef .tc main_v58))⟩,
     ⟨S1x50000x64, broadcastInDim S1x50000x64 ![1, 2] bcast_S50000x64_S1x50000x64_1_2 (Y (Proc.devRef .tc main_v74))⟩]
    concatenates_S1x50000x64_S1x50000x64_S1x50000x64_S1x50000x64_S4x50000x64_d0

theorem stk_split (c : Dev nD) : V m c main_v79 = stkW c (W m c) := by
  show V0 m c (Proc.devRef .tc main_v79) = _
  rw [V0_split]
  generalize W m c = Y
  unfold tailOps
  after_results
  rfl

/-- The bias row and the head's offset over the contents before the seven. -/
theorem bia_split (c : Dev nD) : V m c main_v80 = (fun i => shapeCast S1x128 (W m c (Proc.devRef .tc main_arg3)) shapeCasts_S128_S1x128 i) := by
  show V0 m c (Proc.devRef .tc main_v80) = _
  rw [V0_split]
  generalize W m c = Y
  unfold tailOps
  after_results
  rfl

theorem ofs_split (c : Dev nD) : V m c main_v81 = (fun i => shapeCast S1x1 (W m c (Proc.devRef .tc main_arg5)) shapeCasts_S1_S1x1 i) := by
  show V0 m c (Proc.devRef .tc main_v81) = _
  rw [V0_split]
  generalize W m c = Y
  unfold tailOps
  after_results
  rfl

end Cert.KernelIdeal.Pre

end
-- ==== Proof.RefRow.lean ====
/-
  The reference program's result before its final re-layout, read at one row, on the extended reals.

  The reference multiplies each of the four arrays T_0 = features, T_1, T_2, T_3 of the Chebyshev recurrence by its own
  [64,128] weight matrix (slice n of the weights, viewed as a matrix), adds the four products in order, adds the bias
  repeated down the rows, applies tanh, multiplies by the head's column and adds the head's offset repeated down the
  rows.  A general dot product on the host is the plain sum of products.  So row r of the [50000,1] array is the row
  formula of `HeadSpec` at the row-r entries of the four arrays; the arrays T_1, T_2, T_3 stay what the recurrence's
  stages name them, unopened.
-/
import proofs.«153301_j68375879352861_1_alg».proof.Proof.RefRead
import proofs.«153301_j68375879352861_1_alg».proof.Proof.HeadSpec
import Idealize.ShloMosaic.Lib.ValueIdx

set_option maxRecDepth 16384

noncomputable section

open scoped BigOperators

namespace Cert.ReferenceIdeal.Row

open Cert.ReferenceIdeal Cert.ReferenceIdeal.ReadP Cert.HeadSpec
open Idealize.ShloMosaic Idealize.ShloMosaic.ValueIdx

/-- Weight matrix 0 of the [4,64,128] argument, sliced out and viewed [64,128], reads the argument at (0, k, j). -/
theorem w0_apply (x2 : (⟨S4x64x128, .f32⟩ : BufTy).Contents (Elt Ideal)) (k : Fin 64) (j : Fin 128) :
    val_main_v31 (F := Ideal) x2 (ix2 k j) = x2 (ix3 0 k j) := by
  rw [val_main_v31_apply, val_main_v30_apply]
  refine congrArg x2 (funext fun a => Fin.ext ?_)
  have hk : k.val < 64 := k.isLt
  have hj : j.val < 128 := j.isLt
  match a with
  | ⟨0, _⟩ => show 0 = 0; rfl
  | ⟨1, _⟩ => show (k.val * 128 + j.val) / 128 % 64 = k.val; omega
  | ⟨2, _⟩ => show (k.val * 128 + j.val) % 128 = j.val; omega

/-- Weight matrix 1 of the [4,64,128] argument, sliced out and viewed [64,128], reads the argument at (1, k, j). -/
theorem w1_apply (x2 : (⟨S4x64x128, .f32⟩ : BufTy).Contents (Elt Ideal)) (k : Fin 64) (j : Fin 128) :
    val_main_v47 (F := Ideal) x2 (ix2 k j) = x2 (ix3 1 k j) := by
  rw [val_main_v47_apply, val_main_v46_apply]
  refine congrArg x2 (funext fun a => Fin.ext ?_)
  have hk : k.val < 64 := k.isLt
  have hj : j.val < 128 := j.isLt
  match a with
  | ⟨0, _⟩ => show 1 + 0 = 1; omega
  | ⟨1, _⟩ => show (k.val * 128 + j.val) / 128 % 64 = k.val; omega
  | ⟨2, _⟩ => show (k.val * 128 + j.val) % 128 = j.val; omega

/-- Weight matrix 2 of the [4,64,128] argument, sliced out and viewed [64,128], reads the argument at (2, k, j). -/
theorem w2_apply (x2 : (⟨S4x64x128, .f32⟩ : BufTy).Contents (Elt Ideal)) (k : Fin 64) (j : Fin 128) :
    val_main_v67 (F := Ideal) x2 (ix2 k j) = x2 (ix3 2 k j) := by
  rw [val_main_v67_apply, val_main_v66_apply]
  refine congrArg x2 (funext fun a => Fin.ext ?_)
  have hk : k.val < 64 := k.isLt
  have hj : j.val < 128 := j.isLt
  match a with
  | ⟨0, _⟩ => show 2 + 0 = 2; omega
  | ⟨1, _⟩ => show (k.val * 128 + j.val) / 128 % 64 = k.val; omega
  | ⟨2, _⟩ => show (k.val * 128 + j.val) % 128 = j.val; omega

/-- Weight matrix 3 of the [4,64,128] argument, sliced out and viewed [64,128], reads the argument at (3, k, j). -/
theorem w3_apply (x2 : (⟨S4x64x128, .f32⟩ : BufTy).Contents (Elt Ideal)) (k : Fin 64) (j : Fin 128) :
    val_main_v87 (F := Ideal) x2 (ix2 k j) = x2 (ix3 3 k j) := by
  rw [val_main_v87_apply, val_main_v86_apply]
  refine congrArg x2 (funext fun a => Fin.ext ?_)
  have hk : k.val < 64 := k.isLt
  have hj : j.val < 128 := j.isLt
  match a with
  | ⟨0, _⟩ => show 3 + 0 = 3; omega
  | ⟨1, _⟩ => show (k.val * 128 + j.val) / 128 % 64 = k.val; omega
  | ⟨2, _⟩ => show (k.val * 128 + j.val) % 128 = j.val; omega

/-- The order-0 product of the reference at (r, j): row r of the order's array against column j of its weights. -/
theorem prod0_apply (x0 : (⟨S50000x64, .f32⟩ : BufTy).Contents (Elt Ideal)) (x1 : (⟨S2x800000, .i32⟩ : BufTy).Contents (Elt Ideal))
    (x2 : (⟨S4x64x128, .f32⟩ : BufTy).Contents (Elt Ideal)) (r : Fin 50000) (j : Fin 128) :
    val_main_v32 (F := Ideal) x0 x2 (ix2 r j) = ∑ k : Fin 64, x0 (ix2 r k) * x2 (ix3 0 k j) := by
  rw [val_main_v32_apply]
  refine Finset.sum_congr rfl fun k _ => ?_
  have el : lidx_main_v32 (ix2 r j) k = ix2 r k := funext fun a => Fin.ext (by match a with | ⟨0, _⟩ => rfl | ⟨1, _⟩ => rfl)
  have er : ridx_main_v32 (ix2 r j) k = ix2 k j := funext fun a => Fin.ext (by match a with | ⟨0, _⟩ => rfl | ⟨1, _⟩ => rfl)
  rw [el, er, w0_apply]

/-- The order-1 product of the reference at (r, j): row r of the order's array against column j of its weights. -/
theorem prod1_apply (x0 : (⟨S50000x64, .f32⟩ : BufTy).Contents (Elt Ideal)) (x1 : (⟨S2x800000, .i32⟩ : BufTy).Contents (Elt Ideal))
    (x2 : (⟨S4x64x128, .f32⟩ : BufTy).Contents (Elt Ideal)) (r : Fin 50000) (j : Fin 128) :
    val_main_v48 (F := Ideal) x0 x1 x2 (ix2 r j) = ∑ k : Fin 64, val_main_v45 (F := Ideal) x0 x1 (ix2 r k) * x2 (ix3 1 k j) := by
  rw [val_main_v48_apply]
  refine Finset.sum_congr rfl fun k _ => ?_
  have el : lidx_main_v48 (ix2 r j) k = ix2 r k := funext fun a => Fin.ext (by match a with | ⟨0, _⟩ => rfl | ⟨1, _⟩ => rfl)
  have er : ridx_main_v48 (ix2 r j) k = ix2 k j := funext fun a => Fin.ext (by match a with | ⟨0, _⟩ => rfl | ⟨1, _⟩ => rfl)
  rw [el, er, w1_apply]

/-- The order-2 product of the reference at (r, j): row r of the order's array against column j of its weights. -/
theorem prod2_apply (x0 : (⟨S50000x64, .f32⟩ : BufTy).Contents (Elt Ideal)) (x1 : (⟨S2x800000, .i32⟩ : BufTy).Contents (Elt Ideal))
    (x2 : (⟨S4x64x128, .f32⟩ : BufTy).Contents (Elt Ideal)) (r : Fin 50000) (j : Fin 128) :
    val_main_v68 (F := Ideal) x0 x1 x2 (ix2 r j) = ∑ k : Fin 64, val_main_v65 (F := Ideal) x0 x1 (ix2 r k) * x2 (ix3 2 k j) := by
  rw [val_main_v68_apply]
  refine Finset.sum_congr rfl fun k _ => ?_
  have el : lidx_main_v68 (ix2 r j) k = ix2 r k := funext fun a => Fin.ext (by match a with | ⟨0, _⟩ => rfl | ⟨1, _⟩ => rfl)
  have er : ridx_main_v68 (ix2 r j) k = ix2 k j := funext fun a => Fin.ext (by match a with | ⟨0, _⟩ => rfl | ⟨1, _⟩ => rfl)
  rw [el, er, w2_apply]

/-- The order-3 product of the reference at (r, j): row r of the order's array against column j of its weights. -/
theorem prod3_apply (x0 : (⟨S50000x64, .f32⟩ : BufTy).Contents (Elt Ideal)) (x1 : (⟨S2x800000, .i32⟩ : BufTy).Contents (Elt Ideal))
    (x2 : (⟨S4x64x128, .f32⟩ : BufTy).Contents (Elt Ideal)) (r : Fin 50000) (j : Fin 128) :
    val_main_v88 (F := Ideal) x0 x1 x2 (ix2 r j) = ∑ k : Fin 64, val_main_v85 (F := Ideal) x0 x1 (ix2 r k) * x2 (ix3 3 k j) := by
  rw [val_main_v88_apply]
  refine Finset.sum_congr rfl fun k _ => ?_
  have el : lidx_main_v88 (ix2 r j) k = ix2 r k := funext fun a => Fin.ext (by match a with | ⟨0, _⟩ => rfl | ⟨1, _⟩ => rfl)
  have er : ridx_main_v88 (ix2 r j) k = ix2 k j := funext fun a => Fin.ext (by match a with | ⟨0, _⟩ => rfl | ⟨1, _⟩ => rfl)
  rw [el, er, w3_apply]

/-- The bias repeated down the rows, at (r, j): bias j. -/
theorem bias_apply (x3 : (⟨S128, .f32⟩ : BufTy).Contents (Elt Ideal)) (r : Fin 50000) (j : Fin 128) :
    val_main_v91 (F := Ideal) x3 (ix2 r j) = x3 (ix1 j) := by
  rw [val_main_v91_apply, val_main_v90_apply]
  exact congrArg x3 (funext fun a => Fin.ext (by match a with | ⟨0, _⟩ => rfl))

/-- The head's offset repeated down the rows, at (r, 0): the offset. -/
theorem offset_apply (x5 : (⟨S1, .f32⟩ : BufTy).Contents (Elt Ideal)) (r : Fin 50000) :
    val_main_v96 (F := Ideal) x5 (ix2 r 0) = x5 (ix1 0) := by
  rw [val_main_v96_apply, val_main_v95_apply]
  exact congrArg x5 (funext fun a => Fin.ext (by match a with | ⟨0, _⟩ => rfl))

/-- Hidden unit j of row r. -/
theorem hidden_apply (x0 : (⟨S50000x64, .f32⟩ : BufTy).Contents (Elt Ideal)) (x1 : (⟨S2x800000, .i32⟩ : BufTy).Contents (Elt Ideal))
    (x2 : (⟨S4x64x128, .f32⟩ : BufTy).Contents (Elt Ideal)) (x3 : (⟨S128, .f32⟩ : BufTy).Contents (Elt Ideal)) (r : Fin 50000) (j : Fin 128) :
    val_main_v93 (F := Ideal) x0 x1 x2 x3 (ix2 r j)
      = hidden (fun k => x0 (ix2 r k)) (fun k => val_main_v45 (F := Ideal) x0 x1 (ix2 r k))
          (fun k => val_main_v65 (F := Ideal) x0 x1 (ix2 r k)) (fun k => val_main_v85 (F := Ideal) x0 x1 (ix2 r k))
          (fun k j => x2 (ix3 0 k j)) (fun k j => x2 (ix3 1 k j)) (fun k j => x2 (ix3 2 k j)) (fun k j => x2 (ix3 3 k j))
          (fun j => x3 (ix1 j)) j := by
  rw [val_main_v93_apply, val_main_v92_apply, val_main_v89_apply, val_main_v69_apply, val_main_v49_apply,
    prod0_apply x0 x1 x2, prod1_apply, prod2_apply, prod3_apply, bias_apply]
  rfl

/-- ROW r OF THE REFERENCE'S RESULT before its re-layout: the row formula. -/
theorem row_apply (x0 : (⟨S50000x64, .f32⟩ : BufTy).Contents (Elt Ideal)) (x1 : (⟨S2x800000, .i32⟩ : BufTy).Contents (Elt Ideal))
    (x2 : (⟨S4x64x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal)) (r : Fin 50000) :
    val_main_v97 (F := Ideal) x0 x1 x2 x3 x4 x5 (ix2 r 0)
      = headRow (fun k => x0 (ix2 r k)) (fun k => val_main_v45 (F := Ideal) x0 x1 (ix2 r k))
          (fun k => val_main_v65 (F := Ideal) x0 x1 (ix2 r k)) (fun k => val_main_v85 (F := Ideal) x0 x1 (ix2 r k))
          (fun k j => x2 (ix3 0 k j)) (fun k j => x2 (ix3 1 k j)) (fun k j => x2 (ix3 2 k j)) (fun k j => x2 (ix3 3 k j))
          (fun j => x3 (ix1 j)) (fun j => x4 (ix2 j 0)) (x5 (ix1 0)) := by
  rw [val_main_v97_apply, val_main_v94_apply, offset_apply]
  unfold headRow
  show (∑ k : Fin 128, _) + _ = _
  refine congrArg (· + x5 (ix1 0)) (Finset.sum_congr rfl fun j _ => ?_)
  have el : lidx_main_v94 (ix2 r 0) j = ix2 r j := funext fun a => Fin.ext (by match a with | ⟨0, _⟩ => rfl | ⟨1, _⟩ => rfl)
  have er : ridx_main_v94 (ix2 r 0) j = ix2 j 0 := funext fun a => Fin.ext (by match a with | ⟨0, _⟩ => rfl | ⟨1, _⟩ => rfl)
  rw [el, er, hidden_apply]

end Cert.ReferenceIdeal.Row

end
-- ==== Proof.Bridge.lean ====
/-
  The kernel program's output array is the reference program's result before its re-layout.

  The kernel program's host prefix leaves, in the four arrays it joins along a new leading axis, the features and the
  reference's own T_1, T_2, T_3 (module KernelPrefix); its bias row and head offset are the reference's bias and offset
  laid out as [1,128] and [1,1].  Read at (n, r, q) the stacked array is T_n at (r, q).  With that, row r of the
  kernel's output array and row r of the reference's [50000,1] array are one row formula.
-/
import proofs.«153301_j68375879352861_1_alg».proof.Proof.KernelValue
import proofs.«153301_j68375879352861_1_alg».proof.Proof.KernelPrefix
import proofs.«153301_j68375879352861_1_alg».proof.Proof.RefRow
import Idealize.ShloMosaic.Lib.ValueIdx
import Idealize.ShloMosaic.Lib.Pipeline.Value

set_option maxRecDepth 16384

noncomputable section

open scoped BigOperators

namespace Cert.Bridge

open Cert.KernelIdeal Cert.KernelIdeal.Gen Cert.KernelIdeal.Frm Cert.KernelIdeal.Val Cert.KernelIdeal.Pre Cert.HeadSpec
open Idealize.ShloMosaic Idealize.ShloMosaic.TcCoe Idealize.ShloMosaic.ValueIdx Idealize.SL.Sem

variable (m : (ℓ : Loc nD τ sig) → Buf (Elt Ideal) ℓ)

/-- The other four arguments as launched on core `c`. -/
abbrev a2 (c : Dev nD) : S4x64x128.Idx → EReal := m ((c.tc : Thread nD τ).loc main_arg2)
abbrev a3 (c : Dev nD) : S128.Idx → EReal := m ((c.tc : Thread nD τ).loc main_arg3)
abbrev a4 (c : Dev nD) : S128x1.Idx → EReal := m ((c.tc : Thread nD τ).loc main_arg4)
abbrev a5 (c : Dev nD) : S1.Idx → EReal := m ((c.tc : Thread nD τ).loc main_arg5)

/-- The reference's arrays of the recurrence, of the kernel program's arguments. -/
abbrev t1 (c : Dev nD) : S50000x64.Idx → EReal := Cert.ReferenceIdeal.ReadP.val_main_v45 (F := Ideal) (a0 m c) (a1 m c)
abbrev t2 (c : Dev nD) : S50000x64.Idx → EReal := Cert.ReferenceIdeal.ReadP.val_main_v65 (F := Ideal) (a0 m c) (a1 m c)
abbrev t3 (c : Dev nD) : S50000x64.Idx → EReal := Cert.ReferenceIdeal.ReadP.val_main_v85 (F := Ideal) (a0 m c) (a1 m c)

/-! ## The stacked array -/

/-- The stacked array as the region finds it: the four arrays, each given a leading unit axis, joined along it. -/
theorem stk_eq (c : Dev nD) : stk m c = concatenate S4x50000x64 0
    [⟨S1x50000x64, broadcastInDim S1x50000x64 ![1, 2] bcast_S50000x64_S1x50000x64_1_2 (a0 m c)⟩,
     ⟨S1x50000x64, broadcastInDim S1x50000x64 ![1, 2] bcast_S50000x64_S1x50000x64_1_2 (t1 m c)⟩,
     ⟨S1x50000x64, broadcastInDim S1x50000x64 ![1, 2] bcast_S50000x64_S1x50000x64_1_2 (t2 m c)⟩,
     ⟨S1x50000x64, broadcastInDim S1x50000x64 ![1, 2] bcast_S50000x64_S1x50000x64_1_2 (t3 m c)⟩]
    concatenates_S1x50000x64_S1x50000x64_S1x50000x64_S1x50000x64_S4x50000x64_d0 := by
  have e0 : W m c (Proc.devRef .tc main_arg0) = a0 m c :=
    (W_keep m c main_arg0 (tail_keeps _ (by decide) (by decide) (by decide) (by decide) (by decide) (by decide) (by decide))).trans (V_main_arg0 m c)
  have e1 : W m c (Proc.devRef .tc main_v42) = t1 m c :=
    (W_keep m c main_v42 (tail_keeps _ (by decide) (by decide) (by decide) (by decide) (by decide) (by decide) (by decide))).trans (T1_eq m c)
  have e2 : W m c (Proc.devRef .tc main_v58) = t2 m c :=
    (W_keep m c main_v58 (tail_keeps _ (by decide) (by decide) (by decide) (by decide) (by decide) (by decide) (by decide))).trans (T2_eq m c)
  have e3 : W m c (Proc.devRef .tc main_v74) = t3 m c :=
    (W_keep m c main_v74 (tail_keeps _ (by decide) (by decide) (by decide) (by decide) (by decide) (by decide) (by decide))).trans (T3_eq m c)
  show V m c main_v79 = _
  rw [stk_split]
  unfold stkW
  rw [e0, e1, e2, e3]

/-- An array given a leading unit axis, read at (0, r, q). -/
theorem lead_apply (f : S50000x64.Idx → EReal) (r : Fin 50000) (q : Fin 64) :
    broadcastInDim S1x50000x64 ![1, 2] bcast_S50000x64_S1x50000x64_1_2 f (ix3 0 r q) = f (ix2 r q) :=
  broadcastInDim_apply _ bcast_S50000x64_S1x50000x64_1_2 f (ix3 0 r q) (ix2 r q) (fun a => match a with
    | ⟨0, _⟩ => by show r.val = if (50000 : Nat) = 1 then 0 else r.val; rw [if_neg (by decide)]
    | ⟨1, _⟩ => by show q.val = if (64 : Nat) = 1 then 0 else q.val; rw [if_neg (by decide)])

/-- Along the joined axis, coordinate n of the whole is the n pieces before plus coordinate 0 of piece n. -/
theorem lead_coord (n : Fin 4) (r : Fin 50000) (q : Fin 64) :
    n.val + ((ix3 (0 : Fin 1) r q : S1x50000x64.Idx) (Fin.cast (rfl : S4x50000x64.rank = S1x50000x64.rank) (0 : Fin 3))).val
      = ((ix3 n r q : S4x50000x64.Idx) (0 : Fin 3)).val := rfl

/-- Four [1,50000,64] pieces joined along the leading axis, read at (n, r, q): piece n at (0, r, q). -/
theorem stack_apply (g0 g1 g2 g3 : S1x50000x64.Idx → EReal)
    (h : Shape.Concatenates (([⟨S1x50000x64, g0⟩, ⟨S1x50000x64, g1⟩, ⟨S1x50000x64, g2⟩, ⟨S1x50000x64, g3⟩] :
      List ((s : Shape) × (s.Idx → EReal))).map (·.1)) S4x50000x64 0) (r : Fin 50000) (q : Fin 64) :
    concatenate S4x50000x64 0 [⟨S1x50000x64, g0⟩, ⟨S1x50000x64, g1⟩, ⟨S1x50000x64, g2⟩, ⟨S1x50000x64, g3⟩] h (ix3 0 r q) = g0 (ix3 0 r q)
    ∧ concatenate S4x50000x64 0 [⟨S1x50000x64, g0⟩, ⟨S1x50000x64, g1⟩, ⟨S1x50000x64, g2⟩, ⟨S1x50000x64, g3⟩] h (ix3 1 r q) = g1 (ix3 0 r q)
    ∧ concatenate S4x50000x64 0 [⟨S1x50000x64, g0⟩, ⟨S1x50000x64, g1⟩, ⟨S1x50000x64, g2⟩, ⟨S1x50000x64, g3⟩] h (ix3 2 r q) = g2 (ix3 0 r q)
    ∧ concatenate S4x50000x64 0 [⟨S1x50000x64, g0⟩, ⟨S1x50000x64, g1⟩, ⟨S1x50000x64, g2⟩, ⟨S1x50000x64, g3⟩] h (ix3 3 r q) = g3 (ix3 0 r q) := by
  have hi : ∀ (n : Fin 4) (b : Fin S1x50000x64.rank), b.cast (rfl : S1x50000x64.rank = S4x50000x64.rank) ≠ (0 : Fin 3) →
      ((ix3 (0 : Fin 1) r q : S1x50000x64.Idx) b).val = ((ix3 n r q : S4x50000x64.Idx) (b.cast rfl)).val := fun n b hb => by
    match b with
    | ⟨0, _⟩ => exact absurd rfl hb
    | ⟨1, _⟩ => rfl
    | ⟨2, _⟩ => rfl
  refine ⟨?_, ?_, ?_, ?_⟩
  · exact concatenate_apply_piece (t := S4x50000x64) (0 : Fin 3) [⟨S1x50000x64, g0⟩, ⟨S1x50000x64, g1⟩, ⟨S1x50000x64, g2⟩, ⟨S1x50000x64, g3⟩] h (ix3 (0 : Fin 4) r q : S4x50000x64.Idx) 0 (by simp) S1x50000x64 g0 rfl rfl 0 (by rfl)
      (ix3 (0 : Fin 1) r q : S1x50000x64.Idx) (hi 0) (lead_coord 0 r q)
  · exact concatenate_apply_piece (t := S4x50000x64) (0 : Fin 3) [⟨S1x50000x64, g0⟩, ⟨S1x50000x64, g1⟩, ⟨S1x50000x64, g2⟩, ⟨S1x50000x64, g3⟩] h (ix3 (1 : Fin 4) r q : S4x50000x64.Idx) 1 (by simp) S1x50000x64 g1 rfl rfl 1 (by rfl)
      (ix3 (0 : Fin 1) r q : S1x50000x64.Idx) (hi 1) (lead_coord 1 r q)
  · exact concatenate_apply_piece (t := S4x50000x64) (0 : Fin 3) [⟨S1x50000x64, g0⟩, ⟨S1x50000x64, g1⟩, ⟨S1x50000x64, g2⟩, ⟨S1x50000x64, g3⟩] h (ix3 (2 : Fin 4) r q : S4x50000x64.Idx) 2 (by simp) S1x50000x64 g2 rfl rfl 2 (by rfl)
      (ix3 (0 : Fin 1) r q : S1x50000x64.Idx) (hi 2) (lead_coord 2 r q)
  · exact concatenate_apply_piece (t := S4x50000x64) (0 : Fin 3) [⟨S1x50000x64, g0⟩, ⟨S1x50000x64, g1⟩, ⟨S1x50000x64, g2⟩, ⟨S1x50000x64, g3⟩] h (ix3 (3 : Fin 4) r q : S4x50000x64.Idx) 3 (by simp) S1x50000x64 g3 rfl rfl 3 (by rfl)
      (ix3 (0 : Fin 1) r q : S1x50000x64.Idx) (hi 3) (lead_coord 3 r q)

/-- THE STACKED ARRAY AT (n, r, q) is T_n at (r, q). -/
theorem stk_apply (c : Dev nD) (r : Fin 50000) (q : Fin 64) :
    stk m c (ix3 0 r q) = a0 m c (ix2 r q) ∧ stk m c (ix3 1 r q) = t1 m c (ix2 r q)
    ∧ stk m c (ix3 2 r q) = t2 m c (ix2 r q) ∧ stk m c (ix3 3 r q) = t3 m c (ix2 r q) := by
  rw [stk_eq]
  obtain ⟨e0, e1, e2, e3⟩ := stack_apply _ _ _ _ concatenates_S1x50000x64_S1x50000x64_S1x50000x64_S1x50000x64_S4x50000x64_d0 r q
  exact ⟨e0.trans (lead_apply _ r q), e1.trans (lead_apply _ r q), e2.trans (lead_apply _ r q), e3.trans (lead_apply _ r q)⟩

/-! ## The bias row and the head's offset -/

theorem bia_apply (c : Dev nD) (j : Fin 128) : bia m c (ix2 0 j) = a3 m c (ix1 j) := by
  have e : W m c (Proc.devRef .tc main_arg3) = a3 m c :=
    (W_keep m c main_arg3 (tail_keeps _ (by decide) (by decide) (by decide) (by decide) (by decide) (by decide) (by decide))).trans (V_main_arg3 m c)
  show V m c main_v80 (ix2 0 j) = _
  rw [bia_split, e]
  refine (shapeCast_addUnit_apply (![128]) (a3 m c) shapeCasts_S128_S1x128 (ix2 0 j)).trans ?_
  exact congrArg (a3 m c) (funext fun a => Fin.ext (by match a with | ⟨0, _⟩ => rfl))

theorem ofs_apply (c : Dev nD) : ofs m c (ix2 0 0) = a5 m c (ix1 0) := by
  have e : W m c (Proc.devRef .tc main_arg5) = a5 m c :=
    (W_keep m c main_arg5 (tail_keeps _ (by decide) (by decide) (by decide) (by decide) (by decide) (by decide) (by decide))).trans (V_main_arg5 m c)
  show V m c main_v81 (ix2 0 0) = _
  rw [ofs_split, e]
  refine (shapeCast_addUnit_apply (![1]) (a5 m c) shapeCasts_S1_S1x1 (ix2 0 0)).trans ?_
  exact congrArg (a5 m c) (funext fun a => Fin.ext (by match a with | ⟨0, _⟩ => rfl))

/-! ## The two results -/

/-- THE KERNEL'S OUTPUT ARRAY IS THE REFERENCE'S RESULT before its re-layout, of the same arguments. -/
theorem outArr_eq (c : Dev nD) : outArr m c
    = Cert.ReferenceIdeal.ReadP.val_main_v97 (F := Ideal) (a0 m c) (a1 m c) (a2 m c) (a3 m c) (a4 m c) (a5 m c) := by
  funext i
  obtain ⟨r, z, rfl⟩ : ∃ (r : Fin 50000) (z : Fin 1), i = ix2 r z := ⟨i 0, i 1, eq_ix2 i⟩
  obtain rfl : z = 0 := Subsingleton.elim _ _
  rw [Cert.ReferenceIdeal.Row.row_apply]
  show rowOut m c r = _
  unfold rowOut
  have hw : wts m c = a2 m c := V_main_arg2 m c
  have hh : hed m c = a4 m c := V_main_arg4 m c
  have hb : (fun j : Fin 128 => bia m c (ix2 0 j)) = fun j => a3 m c (ix1 j) := funext fun j => bia_apply m c j
  have ho : ofs m c (ix2 0 0) = a5 m c (ix1 0) := ofs_apply m c
  simp only [(stk_apply m c r _).1, (stk_apply m c r _).2.1, (stk_apply m c r _).2.2.1, (stk_apply m c r _).2.2.2, hw, hh]
  rw [hb, ho]

end Cert.Bridge

end
-- ==== Proof.lean ====
/-
  The kernel program and its reference compute the same [50000] result on the extended reals.

  Both programs run the Chebyshev recurrence on the host: T_0 the features, T_1 the normalised sparse product of T_0,
  T_2 = 2 L T_1 - T_0, T_3 = 2 L T_2 - T_1, with the same operations in the same order.  The reference multiplies each
  T_n by its weight matrix, adds the products, the bias, applies tanh, and applies the linear head.  The kernel program
  lays the four arrays side by side and does the same per tile of 2000 rows inside one kernel region, accumulating
  the four products from a zero array; 0 + x = x, a product into a zero accumulator is the plain sum of products, and a
  change of float format is the identity, so each row of the two results is the same formula.  No finiteness of the
  inputs is needed for the equality.

  The three frames: the kernel program at the word-level and at the exact instance runs its region over the 25 tiles
  with the body's one covering store (modules KernelFrame, KernelIdealFrame, one text at two instances); the reference
  is a straight line of host operations (its run, module RefRun).  The ideal pass rewrote nothing, so `preserves` is
  trivial.
-/
import proofs.«153301_j68375879352861_1_alg».proof.Defs
import proofs.«153301_j68375879352861_1_alg».proof.Proof.Gen.Kernel
import proofs.«153301_j68375879352861_1_alg».proof.Proof.Gen.KernelIdeal
import proofs.«153301_j68375879352861_1_alg».proof.Proof.Gen.ReferenceIdeal
import proofs.«153301_j68375879352861_1_alg».proof.Proof.Gen.Pre_finite_inputs
import proofs.«153301_j68375879352861_1_alg».proof.Proof.KernelFrame
import proofs.«153301_j68375879352861_1_alg».proof.Proof.KernelIdealFrame
import proofs.«153301_j68375879352861_1_alg».proof.Proof.KernelValue
import proofs.«153301_j68375879352861_1_alg».proof.Proof.RefRun
import proofs.«153301_j68375879352861_1_alg».proof.Proof.RefRead
import proofs.«153301_j68375879352861_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frm.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the six arguments both programs end with the [50000] re-layout of one [50000,1] array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast Cert.KernelIdeal.S50000 (Cert.KernelIdeal.Val.outArr m c) _,
    Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v98_eq, (hagree c).1, (hagree c).2.1, (hagree c).2.2.1, (hagree c).2.2.2.1,
    (hagree c).2.2.2.2.1, (hagree c).2.2.2.2.2]
  show _ = shapeCast Cert.KernelIdeal.S50000 (Cert.KernelIdeal.Val.outArr m c) _
  rw [Cert.Bridge.outArr_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
